-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x3 : Shape := ⟨2, ![16777216, 3]⟩
abbrev S10 : Shape := ⟨1, ![10]⟩
abbrev S_ : Shape := ⟨0, ![]⟩

class Facts : Prop where
  bcast_S_S16777216x3 : S_.BroadcastsInDim S16777216x3 (![] : Fin 0 → Fin S16777216x3.rank)
  reducesTo_S16777216x3_S_d0_1 : S16777216x3.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S16777216x3 .f32) (main_arg1 : FVec F S10 .f32) : IVec S_ 1 :=
  let main_v0 : FVec F S16777216x3 .f32 := Host.absf main_arg0
  let main_cst : FVec F S_ .f32 := constant S_ .f32 0x7F800000#32
  let main_v1 : FVec F S16777216x3 .f32 := broadcastInDim S16777216x3 ![] bcast_S_S16777216x3 main_cst
  let main_v2 : IVec S16777216x3 1 := cmpf .olt main_v0 main_v1
  let main_c : IVec S_ 1 := constantI S_ 1 1#1
  let main_v3 : IVec S_ 1 := (fun x v => Host.reduce IntOp.andi x v reducesTo_S16777216x3_S_d0_1 h_S_) main_v2 main_c
  let main_v4 : FVec F S10 .f32 := Host.absf main_arg1
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  main_v8
-- ==== Kernel.lean ====
abbrev S16777216x3 : Shape := ⟨2, ![16777216, 3]⟩
abbrev S10 : Shape := ⟨1, ![10]⟩
abbrev S393216x128 : Shape := ⟨2, ![393216, 128]⟩
abbrev S6144x128 : Shape := ⟨2, ![6144, 128]⟩
abbrev S1x1 : Shape := ⟨2, ![1, 1]⟩
abbrev S6144 : Shape := ⟨1, ![6144]⟩
abbrev S6144x1 : Shape := ⟨2, ![6144, 1]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S16777216x3, .f32⟩
  | .hbm, ⟨1, _⟩ => ⟨S10, .f32⟩
  | .hbm, ⟨2, _⟩ => ⟨S393216x128, .f32⟩
  | .hbm, ⟨3, _⟩ => ⟨S10, .f32⟩
  | .local _ .vmem, ⟨0, _⟩ => ⟨S6144x128, .f32⟩
  | .local _ .vmem, ⟨1, _⟩ => ⟨S6144x128, .f32⟩
  | .local _ .vmem, ⟨2, _⟩ => ⟨S10, .f32⟩
  | .local _ .vmem, ⟨3, _⟩ => ⟨S10, .f32⟩
  | .local _ .vmem, ⟨4, _⟩ => ⟨S1x1, .f32⟩
  | _, _ => ⟨S16777216x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216x3_S393216x128 : S16777216x3.ShapeCasts S393216x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  reduces_S6144x128_S6144 : S6144x128.Reduces [1] S6144
  shapeCasts_S6144_S6144x1 : S6144.ShapeCasts S6144x1
  reduces_S6144x1_S1 : S6144x1.Reduces [0] S1
  shapeCasts_S1_S1x1 : S1.ShapeCasts S1x1
  inpos_S1x1_p0_0 : ∀ a, (![0, 0] : Fin 2 → Nat) a < S1x1.size a
  inb_S10_S10_0 : ∀ a, (![0] : Fin 1 → Nat) a + S10.size a ≤ S10.size a
  h_S10 : 0 < S10.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x128.size a ≤ S393216x128.size a
  hwx0_0 : ∀ i : grid0.Coords, EltTy.bits .f32 = 32 ∨ (Rect.block (s := S393216x128) S6144x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10.size a ≤ S10.size a
  hwx0_1 : ∀ i : grid0.Coords, EltTy.bits .f32 = 32 ∨ (Rect.block (s := S10) S10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10.size a ≤ S10.size a
  hwx0_2 : ∀ i : grid0.Coords, EltTy.bits .f32 = 32 ∨ (Rect.block (s := S10) S10.size (cc0_transform_2 i) (hinb0_2 i)).WholeWords (EltTy.packing .f32)

variable [Facts₀]

abbrev win0_0 : Pipeline.Window sig grid0 :=
  Pipeline.Window.ofSpec (Memref.whole main_v0) S6144x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x3 : Shape := ⟨2, ![16777216, 3]⟩
abbrev S10 : Shape := ⟨1, ![10]⟩
abbrev S_ : Shape := ⟨0, ![]⟩
abbrev S16777216 : Shape := ⟨1, ![16777216]⟩
abbrev S16777216x1 : Shape := ⟨2, ![16777216, 1]⟩
abbrev S1x10 : Shape := ⟨2, ![1, 10]⟩
abbrev S16777216x10 : Shape := ⟨2, ![16777216, 10]⟩

abbrev nBuf : Space → Nat
  | .hbm => 15
  | .vmem => 0
  | .smem => 0
  | _ => 0

abbrev bufTy : (tb : Table) → Fin (tcTables nBuf tb) → BufTy
  | .hbm, ⟨0, _⟩ => ⟨S16777216x3, .f32⟩
  | .hbm, ⟨1, _⟩ => ⟨S10, .f32⟩
  | .hbm, ⟨2, _⟩ => ⟨S16777216x3, .f32⟩
  | .hbm, ⟨3, _⟩ => ⟨S_, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S16777216x1, .f32⟩
  | .hbm, ⟨9, _⟩ => ⟨S1x10, .f32⟩
  | .hbm, ⟨10, _⟩ => ⟨S16777216x10, .f32⟩
  | .hbm, ⟨11, _⟩ => ⟨S16777216x10, .f32⟩
  | .hbm, ⟨12, _⟩ => ⟨S16777216x10, .f32⟩
  | .hbm, ⟨13, _⟩ => ⟨S_, .f32⟩
  | .hbm, ⟨14, _⟩ => ⟨S10, .f32⟩
  | _, _ => ⟨S16777216x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S16777216x3_S16777216_d1 : S16777216x3.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S10_S1x10_1 : S10.BroadcastsInDim S1x10 (![1] : Fin 1 → Fin S1x10.rank)
  bcast_S16777216x1_S16777216x10_0_1 : S16777216x1.BroadcastsInDim S16777216x10 (![0, 1] : Fin 2 → Fin S16777216x10.rank)
  bcast_S1x10_S16777216x10_0_1 : S1x10.BroadcastsInDim S16777216x10 (![0, 1] : Fin 2 → Fin S16777216x10.rank)
  reducesTo_S16777216x10_S10_d0 : S16777216x10.ReducesTo [0] S10

variable [Facts₀]

class Facts : Prop extends Facts₀ where

variable [Facts]
-- ==== Proof.Pieces.lean ====
/-
  What one run of the kernel body leaves behind, as values.

  The body keeps a one-element accumulator `acc` in a scratch buffer.  At every grid point it loads the point's
  [6144,128] block `x`, and stores `acc + (Σ_r Σ_l x[r,l]²) · c` back into the accumulator (the payload `k0_pay2 x acc`).
  At the first point it first stores the zero word (`k0_pay1`) and reads that back as `acc`; at the last point it also
  stores `acc' · w` into the ten-element output block, `acc'` the accumulator it has just written (`k0_pay3 acc' w`).
  Each lemma below reads the pieces a case's run leaves in a buffer back as that payload, for any float instance.
-/
import proofs.«113666_j20796231647546_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole rank-2 access are all zero. -/
theorem zero_offsets_two : (![0, 0] : Fin 2 → Nat) = fun _ => 0 := funext fun a => by fin_cases a <;> rfl
/-- The offset of a whole rank-1 access is zero. -/
theorem zero_offsets_one : (![0] : Fin 1 → Nat) = fun _ => 0 := funext fun a => by fin_cases a <;> rfl

/-- A middle point (neither first nor last): the accumulator `acc` becomes `k0_pay2 x acc`. -/
theorem scratch_middle (c : Dev nD) (i : grid0.Coords) (a1 : Memref sig .tc .vmem S6144x128 .f32) (h1 : a1.IsWhole)
    (a2 : Memref sig .tc .vmem S10 .f32) (h2 : a2.IsWhole) (a3 : Memref sig .tc .vmem S10 .f32) (h3 : a3.IsWhole)
    (a4 : Memref sig .tc .vmem S1x1 .f32) (h4 : a4.IsWhole) (hc0 : ¬cond0_0 i) (hc1 : ¬cond0_1 i)
    (x : Vec F S6144x128 .f32) (w : Vec F S10 .f32) (acc : Vec F S1x1 .f32) :
    sout0_B_0 c i a1 h1 a2 h2 a3 h3 a4 h4 hc0 hc1 x w acc = k0_pay2 x acc := by
  unfold sout0_B_0
  rw [View.read_writes_eq_canon _ _ _ (scover0_B_0 c i a1 h1 a2 h2 a3 h3 a4 h4 hc0 hc1 x w acc)]
  unfold kernelRun0_B
  dsimp only
  rw [View.canon_unit_zero zero_offsets_two]
  simp only [View.readAt_eq_ld, h1.read_unread, h4.read_unread, View.ld_unit_zero (S := S6144x128) zero_offsets_two,
    View.ld_unit_zero (S := S1x1) zero_offsets_two]

/-- The first point: the accumulator is reset to the zero word and then updated, `k0_pay2 x 0`. -/
theorem scratch_first (c : Dev nD) (i : grid0.Coords) (a1 : Memref sig .tc .vmem S6144x128 .f32) (h1 : a1.IsWhole)
    (a2 : Memref sig .tc .vmem S10 .f32) (h2 : a2.IsWhole) (a3 : Memref sig .tc .vmem S10 .f32) (h3 : a3.IsWhole)
    (a4 : Memref sig .tc .vmem S1x1 .f32) (h4 : a4.IsWhole) (hc0 : cond0_0 i) (hc1 : ¬cond0_1 i)
    (x : Vec F S6144x128 .f32) (w : Vec F S10 .f32) :
    sout0_A_0 c i a1 h1 a2 h2 a3 h3 a4 h4 hc0 hc1 x w = k0_pay2 x (k0_pay1 (F := F)) := by
  unfold sout0_A_0
  rw [View.read_writes_eq_canon _ _ _ (scover0_A_0 c i a1 h1 a2 h2 a3 h3 a4 h4 hc0 hc1 x w)]
  unfold kernelRun0_A
  dsimp only
  sl_unfold_words
  rw [View.canon_cons_unit_zero (S := S1x1) zero_offsets_two, View.readCov_unit_zero (S := S1x1) _ zero_offsets_two]
  simp only [View.readAt_eq_ld, h1.read_unread, View.ld_unit_zero (S := S6144x128) zero_offsets_two]

/-- The last point: the accumulator is updated as at a middle point … -/
theorem scratch_last (c : Dev nD) (i : grid0.Coords) (a1 : Memref sig .tc .vmem S6144x128 .f32) (h1 : a1.IsWhole)
    (a2 : Memref sig .tc .vmem S10 .f32) (h2 : a2.IsWhole) (a3 : Memref sig .tc .vmem S10 .f32) (h3 : a3.IsWhole)
    (a4 : Memref sig .tc .vmem S1x1 .f32) (h4 : a4.IsWhole) (hc0 : ¬cond0_0 i) (hc1 : cond0_1 i)
    (x : Vec F S6144x128 .f32) (w : Vec F S10 .f32) (acc : Vec F S1x1 .f32) :
    sout0_C_0 c i a1 h1 a2 h2 a3 h3 a4 h4 hc0 hc1 x w acc = k0_pay2 x acc := by
  unfold sout0_C_0
  rw [View.read_writes_eq_canon _ _ _ (scover0_C_0 c i a1 h1 a2 h2 a3 h3 a4 h4 hc0 hc1 x w acc)]
  unfold kernelRun0_C
  dsimp only
  sl_unfold_words
  rw [View.canon_unit_zero zero_offsets_two]
  simp only [View.readAt_eq_ld, h1.read_unread, h4.read_unread, View.ld_unit_zero (S := S6144x128) zero_offsets_two,
    View.ld_unit_zero (S := S1x1) zero_offsets_two]

/-- … and the output block receives the updated accumulator times the weights, `k0_pay3 (k0_pay2 x acc) w`. -/
theorem output_last (c : Dev nD) (i : grid0.Coords) (a1 : Memref sig .tc .vmem S6144x128 .f32) (h1 : a1.IsWhole)
    (a2 : Memref sig .tc .vmem S10 .f32) (h2 : a2.IsWhole) (a3 : Memref sig .tc .vmem S10 .f32) (h3 : a3.IsWhole)
    (a4 : Memref sig .tc .vmem S1x1 .f32) (h4 : a4.IsWhole) (hc0 : ¬cond0_0 i) (hc1 : cond0_1 i)
    (x : Vec F S6144x128 .f32) (w : Vec F S10 .f32) (acc : Vec F S1x1 .f32) :
    out0_C_2 c i a1 h1 a2 h2 a3 h3 a4 h4 hc0 hc1 x w acc = k0_pay3 (k0_pay2 x acc) w := by
  unfold out0_C_2
  rw [View.read_writes_eq_canon _ _ _ (cover0_C_2 c i a1 h1 a2 h2 a3 h3 a4 h4 hc0 hc1 x w acc)]
  unfold kernelRun0_C
  dsimp only
  sl_unfold_words
  rw [View.canon_unit_zero zero_offsets_one, View.readCov_unit_zero (S := S1x1) _ zero_offsets_two]
  simp only [View.readAt_eq_ld, h1.read_unread, h2.read_unread, h4.read_unread,
    View.ld_unit_zero (S := S6144x128) zero_offsets_two, View.ld_unit_zero (S := S1x1) zero_offsets_two,
    View.ld_unit_zero (S := S10) zero_offsets_one]

end Cert.KernelIdeal.Pieces

end
-- ==== Proof.KernelRun.lean ====
/-
  The kernel's run, read as values.

  The accumulator after point `n` is a running term: `acc 0 = k0_pay2 (block 0) 0`, `acc (n+1) = k0_pay2 (block (n+1)) (acc n)`
  (one `acc + (Σ block²)·c` step per grid point).  Only the last of the 64 points writes the output block back, and that
  block is the whole ten-element result, so after the run the result array holds `k0_pay3 (acc 63) w` — the final
  accumulator times the weight vector `w`, which every point finds unchanged in its second input block.
-/
import proofs.«113666_j20796231647546_2_alg».proof.Proof.Gen.KernelIdeal.Value
import proofs.«113666_j20796231647546_2_alg».proof.Proof.Pieces

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ) (ρ : Dev nD → PrngReg)

/-- The accumulator after point `n`: reset to zero and updated at point 0, updated from the previous one afterwards. -/
def accAfter (c : Dev nD) : (n : ℕ) → n < cfg0.N → Vec F S1x1 .f32
  | 0, h => k0_pay2 (iblk m c 0 ⟨0, h⟩) (k0_pay1 (F := F))
  | n + 1, h => k0_pay2 (iblk m c 0 ⟨n + 1, h⟩) (accAfter c n (Nat.lt_of_succ_lt h))

/-- What the carried scratch holds after point `n` is that running term — by induction on the point. -/
theorem scratch_eq (c : Dev nD) : ∀ (n : ℕ) (h : n < cfg0.N), (outsAt0 m c n h).2 = accAfter m c n h
  | 0, h => by
    rw [show outsAt0 m c 0 h = _ from outsAt0_A m c ⟨0, h⟩ rfl (by show ¬(0 % 64 = 63); omega)]
    dsimp only
    rw [scratch_first]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [scratch_last]
      show k0_pay2 _ (outsAt0 m c n _).2 = k0_pay2 _ (accAfter m c n _)
      rw [scratch_eq c n]
    · rw [outsAt0_B m c ⟨n + 1, h⟩ h0 h1]
      dsimp only
      rw [scratch_middle]
      show k0_pay2 _ (outsAt0 m c n _).2 = k0_pay2 _ (accAfter m c n _)
      rw [scratch_eq c n]

/-- At the last point the output's staging buffer receives the updated accumulator times the weights block. -/
theorem output_eq (c : Dev nD) (t : Fin cfg0.N) (h1 : t.val % 64 = 63) :
    (outsAt0 m c t.val t.isLt).1 = k0_pay3 (accAfter m c t.val t.isLt) (iblk m c 1 t) := by
  have hN : cfg0.N = 64 := N_0
  obtain ⟨n, hn⟩ := t
  cases n with
  | zero => exfalso; dsimp only at h1; omega
  | succ n =>
    have h0 : ¬(⟨n + 1, hn⟩ : Fin cfg0.N).val % 64 = 0 := by dsimp only at h1 ⊢; omega
    rw [outsAt0_C m c ⟨n + 1, hn⟩ h0 h1]
    dsimp only
    rw [output_last]
    show k0_pay3 (k0_pay2 _ (outsAt0 m c n _).2) _ = k0_pay3 (k0_pay2 _ (accAfter m c n _)) _
    rw [scratch_eq m c n]

/-- The weights window's block index is 0 at every point, and so is the output window's. -/
theorem index_weights : ∀ t : Fin cfg0.N, win0_1.index t (0 : Fin 1) = 0 :=
  (by decide +kernel : ∀ t : Fin grid0.N, win0_1.index t (0 : Fin 1) = 0)
theorem index_output : ∀ t : Fin cfg0.N, win0_2.index t (0 : Fin 1) = 0 :=
  (by decide +kernel : ∀ t : Fin grid0.N, win0_2.index t (0 : Fin 1) = 0)

/-- The weights block at any point is the whole weight vector as launched. -/
theorem weights_block (c : Dev nD) (t : Fin cfg0.N) :
    (iblk m c 1 t : Vec F S10 .f32) = m ((c : Thread nD τ).loc main_arg1) := by
  have hz' : (fun a => win0_1.index t a * main_arg1.ty.shape.size a) = fun _ => 0 :=
    funext fun a => by
      match a with
      | ⟨0, _⟩ => show win0_1.index t (0 : Fin 1) * 10 = 0; rw [index_weights t]
  unfold iblk
  refine (Memref.read_access_unit_zero (Elt F) main_arg1 hz' (fun a => by rw [congrFun hz' a]; simp) (V m c main_arg1)).trans ?_
  exact V_main_arg1 m c

/-- The last point of the grid. -/
abbrev lastPoint : Fin cfg0.N := ⟨63, by rw [show cfg0.N = 64 from N_0]; decide⟩

/-- The result array after the run: the final accumulator times the weight vector. -/
abbrev result (c : Dev nD) : Buf (Elt F) ((c : Thread nD τ).loc main_v1) :=
  k0_pay3 (accAfter m c 63 lastPoint.isLt) (m ((c : Thread nD τ).loc main_arg1))

/-- The one write-back, at point 63, writes it: block 0 of the ten-element array is the array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h63 : t.val % 64 = 63 := (flush0_2 t).mp hf
  have ht : t = lastPoint := Fin.ext (by have := t.isLt; show t.val = 63; omega)
  subst ht
  rw [Value.flushed2, output_eq m c lastPoint h63, weights_block]
  have hz' : (fun a => win0_2.index lastPoint a * main_v1.ty.shape.size a) = fun _ => 0 :=
    funext fun a => by
      match a with
      | ⟨0, _⟩ => show win0_2.index lastPoint (0 : Fin 1) * 10 = 0; rw [index_output lastPoint]
  exact (Memref.read_access_unit_zero (Elt F) main_v1 hz' (fun a => by rw [congrFun hz' a]; simp) (result m c)).symm

/-- Every index of the result array lies in that one block. -/
theorem covered (i : S10.Idx) :
    ∃ t : Fin cfg0.N, (cfg0.win 2).flush t = true ∧ i ∈ ((cfg0.win 2).blk t).view.set := by
  refine ⟨lastPoint, (flush0_2 lastPoint).mpr rfl, ?_⟩
  show i ∈ ((View.whole main_v1).slice (win0_2.rect lastPoint)).set
  rw [View.set_slice_whole, Rect.mem_set_unit]
  intro a
  have h0 : (i 0 : Nat) < 10 := (i 0).isLt
  match a with
  | ⟨0, _⟩ =>
    show win0_2.index lastPoint (0 : Fin 1) * 10 ≤ (i 0 : Nat) ∧ (i 0 : Nat) < win0_2.index lastPoint (0 : Fin 1) * 10 + 10
    rw [index_output lastPoint]; omega

/-- So the result array ends holding `result`. -/
theorem final (c : Dev nD) : (dats m 0 c).arrAt 2 cfg0.N = result m c :=
  (dats m 0 c).arrAt_eq_of_cover 2 (result m c) (flushed_eq m c) covered

/-- The kernel's run, read: the result array at `result`, the two arguments unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Acc

end
-- ==== Proof.Finite.lean ====
/-
  The precondition, opened: `finite_inputs` says `|x| < +∞` for every entry `x` of both inputs (two `all`-reductions
  joined by `and`), and an extended real whose absolute value `max x (-x)` is below `+∞` is a real number.
-/
import proofs.«113666_j20796231647546_2_alg».proof.Pre_finite_inputs
import proofs.«113666_j20796231647546_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

open Idealize.ShloMosaic

namespace Cert.Pre_finite_inputs.Finite

open Cert.Pre_finite_inputs

/-- The scalar shape has one index. -/
instance : Subsingleton S_.Idx := ⟨fun a b => funext fun d => d.elim0⟩

/-- `|x| < +∞` (the word 0x7F800000) on the extended reals: `x` is neither infinity. -/
theorem real_of_abs_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of both inputs is a real number. -/
theorem entries_real [Facts] (X : FVec Ideal S16777216x3 .f32) (W : FVec Ideal S10 .f32)
    (h : fn (F := Ideal) X W = fun _ => 1#1) :
    (∀ i, ∃ r : ℝ, X i = r) ∧ (∀ j, ∃ r : ℝ, W j = r) := by
  have h0 := congrFun h ValueIdx.ix0
  dsimp only [fn] at h0
  obtain ⟨hX, hW⟩ := IntOp.andi_eq_one.mp h0
  refine ⟨fun i => real_of_abs_lt _ ?_, fun j => real_of_abs_lt _ ?_⟩
  · exact Host.reduce_andi_all _ _ _ _ _ hX i
  · exact Host.reduce_andi_all _ _ _ _ _ hW j

end Cert.Pre_finite_inputs.Finite

end
-- ==== Proof.Payload.lean ====
/-
  The body's three stored values read at an index, on the extended reals.

  `k0_pay1` is the zero word; `k0_pay2 x acc` is `acc + (Σ_r Σ_l x[r,l]·x[r,l]) · c` at its one index — the lane sum of
  the squared block (a [6144] vector), recast as a [6144,1] column, summed over the rows (a [1] vector), recast as
  [1,1], times the splat of the scale word `c`, added to `acc`; `k0_pay3 acc w` is `acc[0,0] · w[j]` at index `j`.
-/
import proofs.«113666_j20796231647546_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The sum of the squares of a block's entries, rows outside, lanes inside. -/
def blockSq (x : FVec Ideal S6144x128 .f32) : EReal := ∑ r : Fin 6144, ∑ l : Fin 128, x (ix2 r l) * x (ix2 r l)

/-- A lane sum of a [6144,128] array at row `r`: the sum over the 128 lanes of that row. -/
theorem laneSum_apply (y : FVec Ideal S6144x128 .f32) (h : S6144x128.Reduces [1] S6144) (r : Fin 6144) :
    multiReduction .add [1] S6144 y 0x00000000#32 h (.inl rfl) rfl (ix1 r) = ∑ l : Fin 128, y (ix2 r l) := by
  refine (Ideal.multiReduction_add_single y 0x00000000#32 h (.inl rfl) rfl (ix1 r)).trans ?_
  refine Finset.sum_congr rfl fun l _ => congrArg y ?_
  funext a
  match a with
  | ⟨0, _⟩ => rfl
  | ⟨1, _⟩ => rfl

/-- A sum over the rows of a [6144,1] column, at its one index: the sum of the 6144 entries. -/
theorem rowSum_apply (y : FVec Ideal S6144x1 .f32) (h : S6144x1.Reduces [0] S1) :
    multiReduction .add [0] S1 y 0x00000000#32 h (.inl rfl) rfl (ix1 (0 : Fin 1)) = ∑ r : Fin 6144, y (ix2 r (0 : Fin 1)) := by
  refine (Ideal.multiReduction_add_single y 0x00000000#32 h (.inl rfl) rfl (ix1 (0 : Fin 1))).trans ?_
  refine Finset.sum_congr rfl fun r _ => congrArg y ?_
  funext a
  match a with
  | ⟨0, _⟩ => rfl
  | ⟨1, _⟩ => rfl

/-- A [6144] vector recast as a [6144,1] column reads entry `r` at `(r, 0)`. -/
theorem column_apply (y : FVec Ideal S6144 .f32) (h : S6144.ShapeCasts S6144x1) (r : Fin 6144) :
    shapeCast S6144x1 y h (ix2 r (0 : Fin 1)) = y (ix1 r) := by
  refine shapeCast_apply y h _ _ ?_
  rw [Shape.rowMajor_val_one, Shape.rowMajor_val_two]
  show r.val = r.val * 1 + 0
  omega

/-- A [1] vector recast as [1,1] reads its one entry. -/
theorem cell_apply (y : FVec Ideal S1 .f32) (h : S1.ShapeCasts S1x1) (i : S1x1.Idx) :
    shapeCast S1x1 y h i = y (ix1 (0 : Fin 1)) := by
  refine shapeCast_apply y h _ _ ?_
  rw [Shape.rowMajor_val_one, Shape.rowMajor_val_two]
  have h0 : (i 0).val < 1 := (i 0).isLt
  have h1 : (i 1).val < 1 := (i 1).isLt
  show 0 = (i 0).val * 1 + (i 1).val
  omega

/-- The accumulator's update: `acc + (sum of the block's squares) · c`. -/
theorem update_apply (x : Vec Ideal S6144x128 .f32) (acc : Vec Ideal S1x1 .f32) (i : S1x1.Idx) :
    k0_pay2 (F := Ideal) x acc i = acc i + blockSq x * Ideal.ofBits .f32 0x3F13CD3A#32 := by
  unfold k0_pay2
  simp only [shapeCast_self]
  show acc i + (shapeCast S1x1 _ shapeCasts_S1_S1x1 i) * Ideal.ofBits .f32 0x3F13CD3A#32 = _
  refine congrArg (fun z => acc i + z * Ideal.ofBits .f32 0x3F13CD3A#32) ?_
  refine (cell_apply _ _ i).trans ?_
  refine (rowSum_apply _ _).trans ?_
  unfold blockSq
  refine Finset.sum_congr rfl fun r _ => ?_
  refine (column_apply _ _ r).trans ?_
  exact laneSum_apply _ _ r

/-- The accumulator's reset value: the zero word. -/
theorem reset_apply (i : S1x1.Idx) : k0_pay1 (F := Ideal) i = Ideal.ofBits .f32 0x00000000#32 := by
  unfold k0_pay1
  simp only [shapeCast_self]
  rfl

/-- The output: the accumulator's one entry times the weight at `j`. -/
theorem scale_apply (acc : Vec Ideal S1x1 .f32) (w : Vec Ideal S10 .f32) (j : S10.Idx) :
    k0_pay3 (F := Ideal) acc w j = acc (ix2 (0 : Fin 1) (0 : Fin 1)) * w j := by
  unfold k0_pay3
  show extractAt ![0, 0] acc inpos_S1x1_p0_0 * w j = _
  refine congrArg (· * w j) ?_
  unfold extractAt
  exact congrArg acc (funext fun a => Fin.ext (by match a with | ⟨0, _⟩ => rfl | ⟨1, _⟩ => rfl))

end Cert.KernelIdeal.Payload

end
-- ==== Proof.SquareSum.lean ====
/-
  The algebra that joins the two programs, on the extended reals.

  Both programs compute, for a weight `w`, the number `c · w · Σ_p f p` over the 3·2²⁴ = 50331648 entries `f p` (the
  squares of the input, numbered row-major):

    * the reference groups the entries in 2²⁴ rows of 3 and sums `((0 + Σ_i f (3k+i)) · c) · w` over the rows `k`;
    * the kernel groups them in 64 blocks of 6144 × 128, keeps a running `acc ← acc + (Σ_r Σ_l f ((6144t+r)·128+l)) · c`
      over the blocks `t`, starting from `0`, and multiplies the last `acc` by `w`.

  On the extended reals moving `c` and `w` across a sum needs every term to be a real number, so the statement is for
  entries, `c` and `w` that are coercions of reals; then both sides are the coercion of one real sum, re-associated
  (`sum_range_blocks`: a sum over `T·B` consecutive naturals is `T` sums over `B`).
-/
import Mathlib

open scoped BigOperators

namespace Cert.SquareSum

/-- A sum over `T * B` consecutive naturals, taken as `T` blocks of `B`. -/
theorem sum_range_blocks (g : ℕ → ℝ) (T B : ℕ) :
    ∑ p ∈ Finset.range (T * B), g p = ∑ t ∈ Finset.range T, ∑ r ∈ Finset.range B, g (t * B + r) := by
  induction T with
  | zero => simp
  | succ T ih =>
    rw [Nat.succ_mul, Finset.sum_range_add, ih, Finset.sum_range_succ]

/-- The coercion of reals into the extended reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The entries of block `t` (6144 rows of 128 lanes), summed row by row. -/
def blockTotal {M : Type*} [AddCommMonoid M] (f : ℕ → M) (t : ℕ) : M :=
  ∑ r : Fin 6144, ∑ l : Fin 128, f ((6144 * t + r.val) * 128 + l.val)

/-- The entries of row `k` (3 of them), summed. -/
def rowTotal {M : Type*} [AddCommMonoid M] (f : ℕ → M) (k : ℕ) : M :=
  ∑ i : Fin 3, f (3 * k + i.val)

theorem blockTotal_coe (g : ℕ → ℝ) (t : ℕ) : blockTotal (fun p => (g p : EReal)) t = ((blockTotal g t : ℝ) : EReal) := by
  unfold blockTotal
  rw [coe_sum]
  exact Finset.sum_congr rfl fun r _ => (coe_sum _ _).symm

theorem rowTotal_coe (g : ℕ → ℝ) (k : ℕ) : rowTotal (fun p => (g p : EReal)) k = ((rowTotal g k : ℝ) : EReal) := by
  unfold rowTotal
  exact (coe_sum _ _).symm

/-- A block's total is the sum over its 786432 consecutive entries. -/
theorem blockTotal_eq_range (g : ℕ → ℝ) (t : ℕ) :
    blockTotal g t = ∑ q ∈ Finset.range 786432, g (t * 786432 + q) := by
  unfold blockTotal
  rw [show (786432 : ℕ) = 6144 * 128 from rfl, sum_range_blocks (fun q => g (t * (6144 * 128) + q)) 6144 128,
    ← Fin.sum_univ_eq_sum_range (fun r => ∑ l ∈ Finset.range 128, g (t * (6144 * 128) + (r * 128 + l))) 6144]
  refine Finset.sum_congr rfl fun r _ => ?_
  rw [← Fin.sum_univ_eq_sum_range (fun l => g (t * (6144 * 128) + (r.val * 128 + l))) 128]
  refine Finset.sum_congr rfl fun l _ => congrArg g ?_
  ring

/-- A row's total is the sum over its 3 consecutive entries. -/
theorem rowTotal_eq_range (g : ℕ → ℝ) (k : ℕ) : rowTotal g k = ∑ i ∈ Finset.range 3, g (k * 3 + i) := by
  unfold rowTotal
  rw [← Fin.sum_univ_eq_sum_range (fun i => g (k * 3 + i)) 3]
  refine Finset.sum_congr rfl fun i _ => congrArg g ?_
  ring

/-- All the entries, by blocks and by rows: the same 50331648 numbers. -/
theorem blocks_eq_rows (g : ℕ → ℝ) :
    ∑ t ∈ Finset.range 64, blockTotal g t = ∑ k ∈ Finset.range 16777216, rowTotal g k := by
  rw [Finset.sum_congr rfl fun t _ => blockTotal_eq_range g t, Finset.sum_congr rfl fun k _ => rowTotal_eq_range g k,
    ← sum_range_blocks g 64 786432, ← sum_range_blocks g 16777216 3]

/-- The kernel's running accumulator in closed form, over the reals. -/
theorem running_eq (S : ℕ → ℝ) (c : ℝ) (A : ℕ → ℝ) (h0 : A 0 = S 0 * c) (hs : ∀ n, A (n + 1) = A n + S (n + 1) * c) (n : ℕ) :
    A n = (∑ t ∈ Finset.range (n + 1), S t) * c := by
  induction n with
  | zero => rw [h0, Finset.sum_range_one]
  | succ n ih => rw [hs, ih, Finset.sum_range_succ _ (n + 1), add_mul]

/-- THE LAW. For real entries `g`, a real scale `c` and a real weight `w`: the accumulator run over the 64 blocks from
    `z = 0`, times `w`, is the reference's sum over the 2²⁴ rows of `((z + row total) · c) · w` from `z`. -/
theorem accumulated_eq_rows (g : ℕ → ℝ) (c w : ℝ) (z : EReal) (hz : z = 0) (a : ℕ → EReal)
    (h0 : a 0 = z + blockTotal (fun p => (g p : EReal)) 0 * (c : EReal))
    (hs : ∀ n, n + 1 < 64 → a (n + 1) = a n + blockTotal (fun p => (g p : EReal)) (n + 1) * (c : EReal)) :
    a 63 * (w : EReal)
      = z + ∑ k : Fin 16777216, ((z + rowTotal (fun p => (g p : EReal)) k.val) * (c : EReal)) * (w : EReal) := by
  subst hz
  -- the accumulator is the coercion of the real running sum
  have hA : ∀ n, n < 64 → a n = (((∑ t ∈ Finset.range (n + 1), blockTotal g t) * c : ℝ) : EReal) := by
    intro n
    induction n with
    | zero =>
      intro _
      rw [h0, blockTotal_coe, zero_add, ← EReal.coe_mul, Finset.sum_range_one]
    | succ n ih =>
      intro hn
      rw [hs n hn, ih (by omega), blockTotal_coe, ← EReal.coe_mul, ← EReal.coe_add, Finset.sum_range_succ _ (n + 1), add_mul]
  rw [hA 63 (by omega), zero_add]
  have hrow : ∀ k : Fin 16777216, ((0 + rowTotal (fun p => (g p : EReal)) k.val) * (c : EReal)) * (w : EReal)
      = ((rowTotal g k.val * c * w : ℝ) : EReal) := by
    intro k
    rw [rowTotal_coe, zero_add, ← EReal.coe_mul, ← EReal.coe_mul]
  rw [Finset.sum_congr rfl fun k _ => hrow k, ← coe_sum, ← EReal.coe_mul]
  refine congrArg _ ?_
  rw [show (63 + 1 : ℕ) = 64 from rfl, blocks_eq_rows, Fin.sum_univ_eq_sum_range (fun k => rowTotal g k * c * w) 16777216,
    Finset.sum_mul, Finset.sum_mul]

end Cert.SquareSum
-- ==== Proof.Flat.lean ====
/-
  The input array read by row-major position, and the two programs' arithmetic joined over it.

  Entry `p` of the [16777216,3] input (row-major) sits at row `p / 3`, column `p % 3`.  The reference reads the array by
  rows, `X[k,i]` at position `3k + i`; the kernel reads the same memory recast as [393216,128] in 64 blocks of 6144 rows,
  entry `(r, l)` of block `t` at position `(6144t + r)·128 + l`.  Over a real array both are sums of the squared entries
  `X(p)²` by position, which `SquareSum.accumulated_eq_rows` identifies.
-/
import proofs.«113666_j20796231647546_2_alg».proof.Proof.SquareSum
import Idealize.ShloMosaic.Lib.ValueIdx
import Idealize.ShloMosaic.PureOps.Ideal.Laws

noncomputable section

open Idealize.ShloMosaic Idealize.ShloMosaic.ValueIdx

namespace Cert.Flat

/-- The index of a [16777216,3] array at row-major position `p`. -/
def entry (p : ℕ) : (⟨2, ![16777216, 3]⟩ : Shape).Idx :=
  ix2 (⟨p / 3 % 16777216, Nat.mod_lt _ (by omega)⟩ : Fin 16777216) (⟨p % 3, Nat.mod_lt _ (by omega)⟩ : Fin 3)

/-- Entry `i` of row `k` sits at position `3k + i`. -/
theorem entry_row (k : Fin 16777216) (i : Fin 3) : entry (3 * k.val + i.val) = ix2 k i := by
  have hk := k.isLt
  have hi := i.isLt
  unfold entry
  funext a
  match a with
  | ⟨0, _⟩ => exact Fin.ext (by show (3 * k.val + i.val) / 3 % 16777216 = k.val; omega)
  | ⟨1, _⟩ => exact Fin.ext (by show (3 * k.val + i.val) % 3 = i.val; omega)

/-- The scale word (the f32 nearest 1/√3) denotes a real number. -/
theorem scale_real : ∃ r : ℝ, Ideal.ofBits .f32 0x3F13CD3A#32 = (r : EReal) := by
  simp [Ideal.ofBits, Ideal.ieee, -EReal.coe_mul]

/-- THE TWO PROGRAMS' ARITHMETIC, joined: for a real input array `X` and a real weight `W`, an accumulator run over the 64
    blocks of `X`'s squared entries from the zero word, each block's total scaled by the scale word, and multiplied by `W`
    at the end, is the sum over the rows of `((0 + row total) · scale) · W` from the zero word. -/
theorem value_eq (X : (⟨2, ![16777216, 3]⟩ : Shape).Idx → EReal) (hX : ∀ i, ∃ r : ℝ, X i = r)
    (W : EReal) (hW : ∃ r : ℝ, W = r) (acc : ℕ → EReal)
    (h0 : acc 0 = Ideal.ofBits .f32 0x00000000#32
      + SquareSum.blockTotal (fun p => X (entry p) * X (entry p)) 0 * Ideal.ofBits .f32 0x3F13CD3A#32)
    (hs : ∀ n, n + 1 < 64 → acc (n + 1) = acc n
      + SquareSum.blockTotal (fun p => X (entry p) * X (entry p)) (n + 1) * Ideal.ofBits .f32 0x3F13CD3A#32) :
    acc 63 * W = Ideal.ofBits .f32 0x00000000#32 + ∑ k : Fin 16777216,
      ((Ideal.ofBits .f32 0x00000000#32 + ∑ i : Fin 3, X (ix2 k i) * X (ix2 k i)) * Ideal.ofBits .f32 0x3F13CD3A#32) * W := by
  obtain ⟨w, rfl⟩ := hW
  obtain ⟨c, hc⟩ := scale_real
  choose ξ hξ using hX
  have hsq : (fun p => X (entry p) * X (entry p)) = fun p => ((ξ (entry p) * ξ (entry p) : ℝ) : EReal) :=
    funext fun p => by rw [hξ, EReal.coe_mul]
  rw [hsq, hc] at h0
  simp only [hsq, hc] at hs
  rw [hc, SquareSum.accumulated_eq_rows (fun p => ξ (entry p) * ξ (entry p)) c w _ Ideal.ofBits_zero_f32 acc h0 hs]
  refine congrArg₂ (· + ·) rfl (Finset.sum_congr rfl fun k _ => ?_)
  refine congrArg (fun s => ((Ideal.ofBits .f32 0x00000000#32 + s) * (c : EReal)) * (w : EReal)) ?_
  unfold SquareSum.rowTotal
  refine Finset.sum_congr rfl fun i _ => ?_
  show ((ξ (entry (3 * k.val + i.val)) * ξ (entry (3 * k.val + i.val)) : ℝ) : EReal) = _
  rw [entry_row k i, hξ (ix2 k i), EReal.coe_mul]

end Cert.Flat
end
-- ==== Proof.Blocks.lean ====
/-
  The kernel's input blocks, read off the input array.

  Before the kernel runs the [16777216,3] input is recast, row-major, as a [393216,128] array; the kernel's first window
  cuts that into 64 blocks of 6144 rows, block `t` starting at row `6144·t`.  So entry `(r, l)` of block `t` is the
  input's entry at row-major position `(6144·t + r)·128 + l`.
-/
import proofs.«113666_j20796231647546_2_alg».proof.Proof.Gen.KernelIdeal.Frame
import proofs.«113666_j20796231647546_2_alg».proof.Proof.Flat
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Flat

variable {F : FTy → Type} [FloatOps F]
variable (m : (ℓ : Loc nD τ sig) → Buf (Elt F) ℓ)

/-- The first window's block index at point `t` is `(t, 0)`. -/
theorem index_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The array the first window is cut from is the input recast as [393216,128]. -/
theorem recast_input (c : Dev nD) :
    (V m c main_v0 : S393216x128.Idx → Elt F .f32)
      = shapeCast S393216x128 (m ((c : Thread nD τ).loc main_arg0)) shapeCasts_S16777216x3_S393216x128 := by
  dsimp only [Gen.V, Gen.hostOps0]; after_results; rfl

/-- Entry `(r, l)` of block `t` is the input at row-major position `(6144·t + r)·128 + l`. -/
theorem block_apply (c : Dev nD) (t : Fin cfg0.N) (r : Fin 6144) (l : Fin 128) :
    (iblk m c 0 t : Vec F S6144x128 .f32) (ix2 r l)
      = m ((c : Thread nD τ).loc main_arg0) (entry ((6144 * t.val + r.val) * 128 + l.val)) := by
  have hN : cfg0.N = 64 := N_0
  obtain ⟨e0, e1⟩ := index_rows t
  unfold iblk
  rw [View.read_apply]
  show V m c main_v0 (((cfg0.win 0).blk t).view.emb (ix2 r l)) = _
  rw [recast_input]
  refine shapeCast_apply _ _ _ _ ?_
  show (S16777216x3.rowMajor (entry ((6144 * t.val + r.val) * 128 + l.val))).val
    = (S393216x128.rowMajor (((cfg0.win 0).blk t).view.emb (ix2 r l))).val
  rw [Shape.rowMajor_val_two, Shape.rowMajor_val_two]
  show (((6144 * t.val + r.val) * 128 + l.val) / 3 % 16777216) * 3 + ((6144 * t.val + r.val) * 128 + l.val) % 3
    = (win0_0.index t (0 : Fin 2) * 6144 + 1 * r.val) * 128 + (win0_0.index t (1 : Fin 2) * 128 + 1 * l.val)
  rw [e0, e1]
  have h1 := t.isLt
  have h2 := r.isLt
  have h3 := l.isLt
  omega

end Cert.KernelIdeal.Blocks

end
-- ==== Proof.RefRead.lean ====
/-
  The reference's result read at an index, on the extended reals:
  `out[j] = 0 + Σ_k ((0 + Σ_i X[k,i]·X[k,i]) · c) · W[j]` — the row sums of the squared input from the zero word, scaled by
  the scale word `c`, spread against the weights, and summed over the 16777216 rows from the zero word.
-/
import proofs.«113666_j20796231647546_2_alg».proof.Proof.Gen.ReferenceIdeal.Read
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read

/-- The reference's last stage at index `j`, through its thirteen operations. -/
theorem result_apply (X : (⟨S16777216x3, .f32⟩ : BufTy).Contents (Elt Ideal)) (W : (⟨S10, .f32⟩ : BufTy).Contents (Elt Ideal))
    (j : S10.Idx) :
    val_main_v9 (F := Ideal) X W j
      = Ideal.ofBits .f32 0x00000000#32 + ∑ k : Fin 16777216,
          ((Ideal.ofBits .f32 0x00000000#32 + ∑ i : Fin 3, X (ix2 k i) * X (ix2 k i)) * Ideal.ofBits .f32 0x3F13CD3A#32) * W j := by
  rw [val_main_v9_apply]
  refine congrArg₂ (· + ·) rfl (Finset.sum_congr rfl fun k _ => ?_)
  rw [val_main_v8_apply, val_main_v6_apply, val_main_v4_apply, val_main_v3_apply, val_main_v1_apply, val_main_v2_apply,
    val_main_v7_apply, val_main_v5_apply]
  have eW : idx_main_v5 (idx_main_v7 (idx_main_v9 j k)) = j :=
    funext fun a => Fin.ext (by match a with | ⟨0, _⟩ => rfl)
  have eX : ∀ i : Fin 3, idx_main_v1 (idx_main_v4 (idx_main_v6 (idx_main_v9 j k))) i = ix2 k i :=
    fun i => funext fun a => Fin.ext (by match a with | ⟨0, _⟩ => rfl | ⟨1, _⟩ => rfl)
  rw [eW]
  simp only [eX, val_main_v0_apply, val_main_cst_apply, val_main_cst_0_apply]
  rfl

end Cert.ReferenceIdeal.RefValue

end
-- ==== Proof.Bridge.lean ====
/-
  The kernel's result array is the reference's, on the extended reals, for real inputs.

  The kernel's accumulator entry after point `n` satisfies `a 0 = 0 + B 0 · c`, `a (n+1) = a n + B (n+1) · c`, with `B t`
  the total of the squared input entries at the positions of block `t`; its result is `a 63 · W[j]`.  The reference's
  is `0 + Σ_k ((0 + Σ_i X[k,i]²) · c) · W[j]`.  `Flat.value_eq` identifies the two for real `X` and `W`.
-/
import proofs.«113666_j20796231647546_2_alg».proof.Proof.KernelRun
import proofs.«113666_j20796231647546_2_alg».proof.Proof.Payload
import proofs.«113666_j20796231647546_2_alg».proof.Proof.Blocks
import proofs.«113666_j20796231647546_2_alg».proof.Proof.RefRead
import proofs.«113666_j20796231647546_2_alg».proof.Proof.Flat

noncomputable section

open Idealize.ShloMosaic Idealize.ShloMosaic.TcCoe Idealize.SL.Sem Idealize.ShloMosaic.ValueIdx

namespace Cert.Bridge

open Cert.KernelIdeal Cert.KernelIdeal.Gen Cert.Flat

variable (m : (ℓ : Loc nD τ sig) → Buf (Elt Ideal) ℓ)

/-- The two input arrays as launched, as arrays of extended reals. -/
abbrev inputX (c : Dev nD) : (⟨2, ![16777216, 3]⟩ : Shape).Idx → EReal := m ((c : Thread nD τ).loc main_arg0)
abbrev inputW (c : Dev nD) : (⟨1, ![10]⟩ : Shape).Idx → EReal := m ((c : Thread nD τ).loc main_arg1)

/-- The squared input, by row-major position. -/
abbrev sqAt (c : Dev nD) : ℕ → EReal := fun p => inputX m c (entry p) * inputX m c (entry p)

/-- The sum of squares of block `t` is the total of the squared input over the block's positions. -/
theorem blockSq_eq (c : Dev nD) (t : Fin cfg0.N) :
    Payload.blockSq (iblk m c 0 t : Vec Ideal S6144x128 .f32) = SquareSum.blockTotal (sqAt m c) t.val := by
  unfold Payload.blockSq SquareSum.blockTotal
  refine Finset.sum_congr rfl fun r _ => Finset.sum_congr rfl fun l _ => ?_
  exact congrArg₂ (fun a b : EReal => a * b) (Blocks.block_apply m c t r l) (Blocks.block_apply m c t r l)

/-- The accumulator's entry after point `n` (zero past the grid's end). -/
def accEntry (c : Dev nD) (n : ℕ) : EReal :=
  if h : n < cfg0.N then Acc.accAfter m c n h (ix2 (0 : Fin 1) (0 : Fin 1)) else 0

theorem accEntry_zero (c : Dev nD) :
    accEntry m c 0 = Ideal.ofBits .f32 0x00000000#32
      + SquareSum.blockTotal (sqAt m c) 0 * Ideal.ofBits .f32 0x3F13CD3A#32 := by
  have h : 0 < cfg0.N := by rw [show cfg0.N = 64 from N_0]; omega
  unfold accEntry
  rw [dif_pos h]
  show k0_pay2 (F := Ideal) (iblk m c 0 ⟨0, h⟩) (k0_pay1 (F := Ideal)) (ix2 (0 : Fin 1) (0 : Fin 1)) = _
  rw [Payload.update_apply, Payload.reset_apply, blockSq_eq]

theorem accEntry_succ (c : Dev nD) (n : ℕ) (hn : n + 1 < 64) :
    accEntry m c (n + 1) = accEntry m c n
      + SquareSum.blockTotal (sqAt m c) (n + 1) * Ideal.ofBits .f32 0x3F13CD3A#32 := by
  have hN : cfg0.N = 64 := N_0
  have h1 : n + 1 < cfg0.N := by omega
  have h0 : n < cfg0.N := by omega
  unfold accEntry
  rw [dif_pos h1, dif_pos h0]
  show k0_pay2 (F := Ideal) (iblk m c 0 ⟨n + 1, h1⟩) (Acc.accAfter m c n _) (ix2 (0 : Fin 1) (0 : Fin 1)) = _
  rw [Payload.update_apply, blockSq_eq]

/-- For real inputs the kernel's result array is the reference's last stage of the same two arrays. -/
theorem result_eq (c : Dev nD)
    (hX : ∀ i, ∃ r : ℝ, inputX m c i = r) (hW : ∀ j, ∃ r : ℝ, inputW m c j = r) :
    Acc.result m c = Cert.ReferenceIdeal.Read.val_main_v9 (F := Ideal)
      (m ((c : Thread nD τ).loc main_arg0)) (m ((c : Thread nD τ).loc main_arg1)) := by
  funext j
  rw [Cert.ReferenceIdeal.RefValue.result_apply]
  show k0_pay3 (F := Ideal) (Acc.accAfter m c 63 Acc.lastPoint.isLt) (m ((c : Thread nD τ).loc main_arg1)) j = _
  rw [Payload.scale_apply]
  have e63 : accEntry m c 63 = Acc.accAfter m c 63 Acc.lastPoint.isLt (ix2 (0 : Fin 1) (0 : Fin 1)) :=
    dif_pos Acc.lastPoint.isLt
  rw [← e63]
  exact value_eq (inputX m c) hX (inputW m c j) (hW j) (accEntry m c) (accEntry_zero m c) (accEntry_succ m c)

end Cert.Bridge

end
-- ==== Proof.lean ====
/-
  The kernel streams the [16777216,3] input `X`, recast as [393216,128], through 64 blocks of 6144 rows, keeps
  `acc ← acc + (Σ of the block's squares) · c` in a one-element scratch (reset to 0 at the first block) and at the last
  block writes `out[j] = acc · W[j]`; `c` is the f32 word nearest 1/√3.  The reference computes
  `out[j] = 0 + Σ_k ((0 + Σ_i X[k,i]²) · c) · W[j]` over the 16777216 rows.  Both use the same word `c`, and for finite
  inputs (every entry a real number — the precondition) both are `c · W[j] · Σ X²`: the scale and the weight move
  across the sums, which on the extended reals needs exactly that finiteness, and the blocks and the rows are two
  groupings of the same 50331648 squares.

  The modules: `Pieces` (what one run of the body leaves in its buffers), `KernelRun` (the accumulator as a running
  term, the result array after the run), `Payload` (the body's arithmetic at an index), `Blocks` (a block's entries as
  entries of `X` by row-major position), `RefRead` (the reference at an index), `SquareSum` and `Flat` (the algebra),
  `Finite` (the precondition opened), `Bridge` (the two results are equal).  The three frames are the generated ones
  (the reference's is its generated run with the result dropped); the idealization rewrote nothing.
-/
import proofs.«113666_j20796231647546_2_alg».proof.Defs
import proofs.«113666_j20796231647546_2_alg».proof.Proof.Gen.Kernel
import proofs.«113666_j20796231647546_2_alg».proof.Proof.Gen.Kernel.Skeleton
import proofs.«113666_j20796231647546_2_alg».proof.Proof.Gen.Kernel.Launch
import proofs.«113666_j20796231647546_2_alg».proof.Proof.Gen.Kernel.Points
import proofs.«113666_j20796231647546_2_alg».proof.Proof.Gen.Kernel.Frame
import proofs.«113666_j20796231647546_2_alg».proof.Proof.Gen.KernelIdeal
import proofs.«113666_j20796231647546_2_alg».proof.Proof.Gen.KernelIdeal.Skeleton
import proofs.«113666_j20796231647546_2_alg».proof.Proof.Gen.KernelIdeal.Launch
import proofs.«113666_j20796231647546_2_alg».proof.Proof.Gen.KernelIdeal.Points
import proofs.«113666_j20796231647546_2_alg».proof.Proof.Gen.KernelIdeal.Frame
import proofs.«113666_j20796231647546_2_alg».proof.Proof.Gen.ReferenceIdeal
import proofs.«113666_j20796231647546_2_alg».proof.Proof.Gen.Pre_finite_inputs
import proofs.«113666_j20796231647546_2_alg».proof.Proof.Gen.KernelIdeal.Value
import proofs.«113666_j20796231647546_2_alg».proof.Proof.Gen.ReferenceIdeal.Run
import proofs.«113666_j20796231647546_2_alg».proof.Proof.Gen.ReferenceIdeal.Read
import proofs.«113666_j20796231647546_2_alg».proof.Proof.KernelRun
import proofs.«113666_j20796231647546_2_alg».proof.Proof.Finite
import proofs.«113666_j20796231647546_2_alg».proof.Proof.Bridge
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from finite inputs that agree, the kernel's result array and the reference's are equal:
    the kernel's is `acc₆₃ · W` (its run, read), the reference's its last stage, and for real entries the two are one
    number at every index (`Bridge.result_eq`). -/
theorem algebraic : Cert.algebraic_KernelIdeal_ReferenceIdeal := by
  intro m ρ m' ρ' hpre hagree
  refine ⟨fun c => Cert.KernelIdeal.Acc.result m c, Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  obtain ⟨hX, hW⟩ := Cert.Pre_finite_inputs.Finite.entries_real _ _ (hpre c)
  exact (Cert.Bridge.result_eq m c hX hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
